-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S800000x256 : Shape := ⟨2, ![800000, 256]⟩
abbrev S1x128 : Shape := ⟨2, ![1, 128]⟩

abbrev nBuf : Space → Nat
  | .hbm => 53
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S128x256, .f32⟩
  | .hbm, ⟨33, _⟩ => ⟨S128x256, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S256x128, .f32⟩
  | .hbm, ⟨50, _⟩ => ⟨S256x128, .f32⟩
  | .hbm, ⟨51, _⟩ => ⟨S1x128, .f32⟩
  | .hbm, ⟨52, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x1, .f32⟩
  | .local _ .vmem, ⟨14, _⟩ => ⟨S5000x1, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S1x128, .f32⟩
  | .local _ .vmem, ⟨19, _⟩ => ⟨S256x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  transposes_S128x256_S256x128_1_0 : S128x256.Transposes [1, 0] S256x128
  shapeCasts_S128_S1x128 : S128.ShapeCasts S1x128
  shapeCasts_S5000x256_S5000x256 : S5000x256.ShapeCasts S5000x256
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S256x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run with its result named.

  The program is a stretch of host operations, the first pallas_call, a second stretch of host operations and the
  second pallas_call. Its run leaves every buffer the program does not scope at the contents of the last segment
  boundary: the buffers after the second call. The frame statement keeps of this only that the eight argument arrays
  end as launched; the same run read at the result buffer as well says that the result ends at the last
  boundary's contents of that buffer, which is what the second call's write-backs leave there.
-/
import proofs.«131110_j51908974739870_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents
    the last segment boundary gives it, and the argument arrays end as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.SageLayer.lean ====
/-
  One mean-aggregating linear layer, entry by entry, on the extended reals.

  For a node p and an output channel q the layer's value is

      (∑ₖ (A(p,k) / max(D(p,0), 1)) · WL(k,q)  +  ∑ₖ X(p,k) · WR(k,q))  +  B(0,q),

  where A holds the summed neighbour features of each node, D the number of incoming edges of each node as a
  column, X the node's own features, WL and WR the two weight matrices laid contraction-axis first, and B the
  bias as a row. The value at (p,q) reads row p of A, D and X, column q of WL, WR and B, and nothing else: two
  families of arrays that agree on those rows and columns give the same entry (`lin_congr`). That one fact
  carries both a block of rows read out of the whole arrays and a re-laid operand (a transposed weight matrix,
  a bias or a degree vector given a unit axis) read through its re-laying.
-/
import Idealize.ShloMosaic.Lib.ValueIdx
import Idealize.ShloMosaic.PureOps.Ideal

noncomputable section

open scoped BigOperators

namespace Cert.Sage

open Idealize.ShloMosaic Idealize.ShloMosaic.ValueIdx

/-- The number one, as the binary32 word the programs spell it with. -/
abbrev one : EReal := Ideal.ofBits .f32 0x3F800000#32
/-- The number zero, as the binary32 word the programs spell it with. -/
abbrev zero : EReal := Ideal.ofBits .f32 0x00000000#32

/-- The layer before any activation, at entry `i = (p, q)`. -/
def lin {N K M : Nat} (A : (⟨2, ![N, K]⟩ : Shape).Idx → EReal) (D : (⟨2, ![N, 1]⟩ : Shape).Idx → EReal)
    (X : (⟨2, ![N, K]⟩ : Shape).Idx → EReal) (WL : (⟨2, ![K, M]⟩ : Shape).Idx → EReal)
    (B : (⟨2, ![1, M]⟩ : Shape).Idx → EReal) (WR : (⟨2, ![K, M]⟩ : Shape).Idx → EReal) :
    (⟨2, ![N, M]⟩ : Shape).Idx → EReal := fun i =>
  ((∑ k : Fin K, Ideal.div (A (ix2 (i 0) k)) (max (D (ix2 (i 0) 0)) one) * WL (ix2 k (i 1)))
    + ∑ k : Fin K, X (ix2 (i 0) k) * WR (ix2 k (i 1))) + B (ix2 0 (i 1))

/-- The entry at `j` of one family of arrays is the entry at `i` of another when the two families agree on the
    row of `j` against the row of `i` (A, D, X) and on the column of `j` against the column of `i` (WL, B, WR). -/
theorem lin_congr {n N K M : Nat}
    {A1 : (⟨2, ![n, K]⟩ : Shape).Idx → EReal} {D1 : (⟨2, ![n, 1]⟩ : Shape).Idx → EReal}
    {X1 : (⟨2, ![n, K]⟩ : Shape).Idx → EReal} {WL1 : (⟨2, ![K, M]⟩ : Shape).Idx → EReal}
    {B1 : (⟨2, ![1, M]⟩ : Shape).Idx → EReal} {WR1 : (⟨2, ![K, M]⟩ : Shape).Idx → EReal}
    {A2 : (⟨2, ![N, K]⟩ : Shape).Idx → EReal} {D2 : (⟨2, ![N, 1]⟩ : Shape).Idx → EReal}
    {X2 : (⟨2, ![N, K]⟩ : Shape).Idx → EReal} {WL2 : (⟨2, ![K, M]⟩ : Shape).Idx → EReal}
    {B2 : (⟨2, ![1, M]⟩ : Shape).Idx → EReal} {WR2 : (⟨2, ![K, M]⟩ : Shape).Idx → EReal}
    (j : (⟨2, ![n, M]⟩ : Shape).Idx) (i : (⟨2, ![N, M]⟩ : Shape).Idx)
    (hA : ∀ k : Fin K, A1 (ix2 (j 0) k) = A2 (ix2 (i 0) k))
    (hD : D1 (ix2 (j 0) 0) = D2 (ix2 (i 0) 0))
    (hX : ∀ k : Fin K, X1 (ix2 (j 0) k) = X2 (ix2 (i 0) k))
    (hWL : ∀ k : Fin K, WL1 (ix2 k (j 1)) = WL2 (ix2 k (i 1)))
    (hB : B1 (ix2 0 (j 1)) = B2 (ix2 0 (i 1)))
    (hWR : ∀ k : Fin K, WR1 (ix2 k (j 1)) = WR2 (ix2 k (i 1))) :
    lin A1 D1 X1 WL1 B1 WR1 j = lin A2 D2 X2 WL2 B2 WR2 i := by
  unfold lin
  simp only [hA, hD, hX, hWL, hB, hWR]

/-- The same layer with the bias added before the node's own term: addition on the extended reals is commutative
    and associative, infinities included, so the order of the three summands does not matter. -/
theorem lin_bias_first {N K M : Nat} (A : (⟨2, ![N, K]⟩ : Shape).Idx → EReal) (D : (⟨2, ![N, 1]⟩ : Shape).Idx → EReal)
    (X : (⟨2, ![N, K]⟩ : Shape).Idx → EReal) (WL : (⟨2, ![K, M]⟩ : Shape).Idx → EReal)
    (B : (⟨2, ![1, M]⟩ : Shape).Idx → EReal) (WR : (⟨2, ![K, M]⟩ : Shape).Idx → EReal) (i : (⟨2, ![N, M]⟩ : Shape).Idx) :
    ((∑ k : Fin K, Ideal.div (A (ix2 (i 0) k)) (max (D (ix2 (i 0) 0)) one) * WL (ix2 k (i 1))) + B (ix2 0 (i 1)))
      + (∑ k : Fin K, X (ix2 (i 0) k) * WR (ix2 k (i 1))) = lin A D X WL B WR i := by
  unfold lin
  exact add_right_comm _ _ _

end Cert.Sage

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.KernelLayer0.lean ====
/-
  The first pallas_call, read as one function of the arrays it is entered with.

  Its grid has ten points; point t handles rows 5000·t … 5000·t + 4999. At a point the body loads a block of 5000
  rows of the summed neighbour features, of the in-degree column and of the node features, and the two weight
  matrices and the bias whole; it divides each summed row by max(degree, 1), multiplies by the two weight matrices
  (the roundings to bf16 on the way into the products are the identity on the extended reals), adds the two
  products and then the bias, and clamps at zero. So at (p, q) of the block the stored value reads row p of the
  three row-blocked operands and column q of the weights and bias: it is `max (Sage.lin …) 0` of the blocks, and
  since row p of block t is row 5000·t + p of the whole array, the block written back at point t is block t of
  `max (Sage.lin …) 0` of the whole arrays. The ten blocks tile the 50000 rows, so after the call the result array
  is that function of the arrays as the call found them.
-/
import proofs.«131110_j51908974739870_1_alg».proof.Proof.Gen.KernelIdeal.Frame
import proofs.«131110_j51908974739870_1_alg».proof.Proof.SageLayer
import proofs.«131110_j51908974739870_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

/-- An [m, 1] column repeated across n columns holds, at (p, q), the column's entry of row p. -/
theorem column_repeated {α : Type} {m n : Nat} (hm : m ≠ 1) (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ => exact (if_neg hm).symm
  | ⟨1, _⟩ => rfl

/-- The product of a block of rows with a weight matrix, into the zero accumulator, at (p, q). -/
theorem product_apply {φ₁ φ₂ : FTy} (L : FVec Ideal S5000x128 φ₁) (R : FVec Ideal S128x256 φ₂) (p : Fin 5000) (q : Fin 256) :
    matmul dot_S5000x128_S128x256_S5000x256_1_0_0_1_n_n none L R (constant S5000x256 .f32 0x00000000#32) (ix2 p q)
      = ∑ k : Fin 128, L (ix2 p k) * R (ix2 k q) :=
  PlainDot.matmul_zero_apply 5000 128 256 none L R p q

/-- What the body stores, at an entry of the block: the clamped layer of the loaded blocks. -/
theorem stored_apply (a : Vec Ideal S5000x128 .f32) (d : Vec Ideal S5000x1 .f32) (x : Vec Ideal S5000x128 .f32)
    (wl : Vec Ideal S128x256 .f32) (wr : Vec Ideal S128x256 .f32) (b : Vec Ideal S1x256 .f32) (j : S5000x256.Idx) :
    k0_pay1 a d x wl wr b j = max (Sage.lin a d x wl b wr j) Sage.zero := by
  obtain ⟨p, q, rfl⟩ : ∃ (p : Fin 5000) (q : Fin 256), j = ix2 p q := ⟨j 0, j 1, eq_ix2 j⟩
  unfold k0_pay1
  simp only [shapeCast_self]
  rw [maximumf_apply, addf_apply, addf_apply, product_apply, product_apply, broadcastTo_1b_ab_apply]
  unfold Sage.lin
  simp only [truncf_apply, divf_apply, maximumf_apply, column_repeated (by decide : (5000 : Nat) ≠ 1)]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The hidden layer as one function of whole arrays: the clamped layer, entry by entry. -/
abbrev hidden (A : S50000x128.Idx → EReal) (D : S50000x1.Idx → EReal) (X : S50000x128.Idx → EReal)
    (WL : S128x256.Idx → EReal) (B : S1x256.Idx → EReal) (WR : S128x256.Idx → EReal) : S50000x256.Idx → EReal :=
  fun i => max (Sage.lin A D X WL B WR i) Sage.zero

/-- Where each operand's block sits at grid point t: the three row-blocked inputs move with the output's row block
    and stay in column block 0; the weights and the bias stay at block (0, 0); there are ten row blocks. -/
theorem block_index : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every one of the ten row blocks is some grid point's. -/
theorem block_onto : ∀ q0 : Fin 10, ∃ t : Fin cfg0.N, win0_6.index t = ![q0.val, 0] :=
  (by decide +kernel : ∀ q0 : Fin 10, ∃ t : Fin grid0.N, win0_6.index t = ![q0.val, 0])

/-- What point t writes back is block t of the hidden layer of the arrays as the call finds them. -/
theorem written_back (c : Dev nD) (t : Fin cfg0.N) :
    (dat0 V c).flushed 6 t = ((cfg0.win 6).blk t).view.read (Elt Ideal)
      (hidden (V c main_v18) (V c main_v8) (V c main_arg0) (V c main_v19) (V c main_v21) (V c main_v20)) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x256) zero_offsets, View.ld_unit_zero (S := S1x256) zero_offsets]
  obtain ⟨e0, e1, e2, e3, e4, e5, e6, e7, e8, e9, e10, e11, e12, e13⟩ := block_index t
  funext j
  show k0_pay1 (iblk0 V c 0 t) (iblk0 V c 1 t) (iblk0 V c 2 t) (iblk0 V c 3 t) (iblk0 V c 5 t) (iblk0 V c 4 t) j
    = max (Sage.lin (V c main_v18) (V c main_v8) (V c main_arg0) (V c main_v19) (V c main_v21) (V c main_v20)
        (((cfg0.win 6).blk t).view.emb j)) Sage.zero
  rw [stored_apply]
  refine congrArg (fun z => max z Sage.zero) (Sage.lin_congr j _ ?_ ?_ ?_ ?_ ?_ ?_)
  · intro k
    show V c main_v18 (((cfg0.win 0).blk t).view.emb (ix2 (j 0) k)) = V c main_v18 (ix2 ((((cfg0.win 6).blk t).view.emb j) 0) k)
    refine congrArg (V c main_v18) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · show V c main_v8 (((cfg0.win 1).blk t).view.emb (ix2 (j 0) 0)) = V c main_v8 (ix2 ((((cfg0.win 6).blk t).view.emb j) 0) 0)
    refine congrArg (V c main_v8) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 1 + 1 * 0 = 0; omega
  · intro k
    show V c main_arg0 (((cfg0.win 2).blk t).view.emb (ix2 (j 0) k)) = V c main_arg0 (ix2 ((((cfg0.win 6).blk t).view.emb j) 0) k)
    refine congrArg (V c main_arg0) (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * k.val = k.val; omega
  · intro k
    show V c main_v19 (((cfg0.win 3).blk t).view.emb (ix2 k (j 1))) = V c main_v19 (ix2 k ((((cfg0.win 6).blk t).view.emb j) 1))
    refine congrArg (V c main_v19) (funext fun a => Fin.ext ?_)
    match a with
    | ⟨0, _⟩ => show win0_3.index t (0 : Fin 2) * 128 + 1 * k.val = k.val; omega
    | ⟨1, _⟩ => show win0_3.index t (1 : Fin 2) * 256 + 1 * (j 1).val = win0_6.index t (1 : Fin 2) * 256 + 1 * (j 1).val; omega
  · show V c main_v21 (((cfg0.win 4).blk t).view.emb (ix2 0 (j 1))) = V c main_v21 (ix2 0 ((((cfg0.win 6).blk t).view.emb j) 1))
    refine congrArg (V c main_v21) (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_6.index t (1 : Fin 2) * 256 + 1 * (j 1).val; omega
  · intro k
    show V c main_v20 (((cfg0.win 5).blk t).view.emb (ix2 k (j 1))) = V c main_v20 (ix2 k ((((cfg0.win 6).blk t).view.emb j) 1))
    refine congrArg (V c main_v20) (funext fun a => Fin.ext ?_)
    match a with
    | ⟨0, _⟩ => show win0_5.index t (0 : Fin 2) * 128 + 1 * k.val = k.val; omega
    | ⟨1, _⟩ => show win0_5.index t (1 : Fin 2) * 256 + 1 * (j 1).val = win0_6.index t (1 : Fin 2) * 256 + 1 * (j 1).val; omega

/-- An index of the result array lies in point t's block iff each coordinate lies in the block's range on its axis. -/
theorem mem_block (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v22).slice (win0_6.rect t)).set ↔ _
  rw [View.set_slice_whole, Rect.mem_set_unit]
  exact Iff.rfl

/-- Every index of the result array is in some point's block: row r is in row block r / 5000. -/
theorem covered (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := block_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- After the call the result array is the hidden layer of the arrays as the call found them. -/
theorem result (c : Dev nD) :
    (dat0 V c).arrAt 6 cfg0.N
      = hidden (V c main_v18) (V c main_v8) (V c main_arg0) (V c main_v19) (V c main_v21) (V c main_v20) :=
  (dat0 V c).arrAt_eq_of_cover 6 _ (fun t _ => written_back V c t) covered

end Cert.KernelIdeal.Layer0

end
-- ==== Proof.KernelLayer1.lean ====
/-
  The second pallas_call, read as one function of the arrays it is entered with.

  The same body as the first call's at other extents (256 input channels, 128 output channels) and without the
  clamp: at a grid point it loads a block of 5000 rows of the summed neighbour activations, of the in-degree column
  and of the hidden activations, and the two weight matrices and the bias whole, and stores
  (mean · WL + h · WR) + b for the block. Row p of block t is row 5000·t + p of the whole arrays, so the block
  written back at point t is block t of `Sage.lin` of the whole arrays, and the ten blocks tile the 50000 rows.
-/
import proofs.«131110_j51908974739870_1_alg».proof.Proof.Gen.KernelIdeal.Frame
import proofs.«131110_j51908974739870_1_alg».proof.Proof.SageLayer
import proofs.«131110_j51908974739870_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- An [m, 1] column repeated across n columns holds, at (p, q), the column's entry of row p. -/
theorem column_repeated {α : Type} {m n : Nat} (hm : m ≠ 1) (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ => exact (if_neg hm).symm
  | ⟨1, _⟩ => rfl

/-- The product of a block of rows with a weight matrix, into the zero accumulator, at (p, q). -/
theorem product_apply {φ₁ φ₂ : FTy} (L : FVec Ideal S5000x256 φ₁) (R : FVec Ideal S256x128 φ₂) (p : Fin 5000) (q : Fin 128) :
    matmul dot_S5000x256_S256x128_S5000x128_1_0_0_1_n_n none L R (constant S5000x128 .f32 0x00000000#32) (ix2 p q)
      = ∑ k : Fin 256, L (ix2 p k) * R (ix2 k q) :=
  PlainDot.matmul_zero_apply 5000 256 128 none L R p q

/-- What the body stores, at an entry of the block: the layer of the loaded blocks. -/
theorem stored_apply (a : Vec Ideal S5000x256 .f32) (d : Vec Ideal S5000x1 .f32) (x : Vec Ideal S5000x256 .f32)
    (wl : Vec Ideal S256x128 .f32) (wr : Vec Ideal S256x128 .f32) (b : Vec Ideal S1x128 .f32) (j : S5000x128.Idx) :
    k1_pay1 a d x wl wr b j = Sage.lin a d x wl b wr j := by
  obtain ⟨p, q, rfl⟩ : ∃ (p : Fin 5000) (q : Fin 128), j = ix2 p q := ⟨j 0, j 1, eq_ix2 j⟩
  unfold k1_pay1
  simp only [shapeCast_self]
  rw [addf_apply, addf_apply, product_apply, product_apply, broadcastTo_1b_ab_apply]
  unfold Sage.lin
  simp only [truncf_apply, divf_apply, maximumf_apply, column_repeated (by decide : (5000 : Nat) ≠ 1)]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The output layer as one function of whole arrays, entry by entry. -/
abbrev output (A : S50000x256.Idx → EReal) (D : S50000x1.Idx → EReal) (X : S50000x256.Idx → EReal)
    (WL : S256x128.Idx → EReal) (B : S1x128.Idx → EReal) (WR : S256x128.Idx → EReal) : S50000x128.Idx → EReal :=
  fun i => Sage.lin A D X WL B WR i

/-- Where each operand's block sits at grid point t: the three row-blocked inputs move with the output's row block
    and stay in column block 0; the weights and the bias stay at block (0, 0); there are ten row blocks. -/
theorem block_index : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every one of the ten row blocks is some grid point's. -/
theorem block_onto : ∀ q0 : Fin 10, ∃ t : Fin cfg1.N, win1_6.index t = ![q0.val, 0] :=
  (by decide +kernel : ∀ q0 : Fin 10, ∃ t : Fin grid1.N, win1_6.index t = ![q0.val, 0])

/-- What point t writes back is block t of the output layer of the arrays as the call finds them. -/
theorem written_back (c : Dev nD) (t : Fin cfg1.N) :
    (dat1 V c).flushed 6 t = ((cfg1.win 6).blk t).view.read (Elt Ideal)
      (output (V c main_v32) (V c main_v8) (V c main_v22) (V c main_v33) (V c main_v35) (V c main_v34)) := by
  show (cfg1.win 6).cut (grid1.coords t) ((dat1 V c).after 6 t) = _
  rw [after1_6]
  unfold out1_6
  rw [View.canon_unit_zero zero_offsets]
  simp only [View.ld_unit_zero (S := S5000x256) zero_offsets, View.ld_unit_zero (S := S5000x1) zero_offsets,
    View.ld_unit_zero (S := S256x128) zero_offsets, View.ld_unit_zero (S := S1x128) zero_offsets]
  obtain ⟨e0, e1, e2, e3, e4, e5, e6, e7, e8, e9, e10, e11, e12, e13⟩ := block_index t
  funext j
  show k1_pay1 (iblk1 V c 0 t) (iblk1 V c 1 t) (iblk1 V c 2 t) (iblk1 V c 3 t) (iblk1 V c 5 t) (iblk1 V c 4 t) j
    = Sage.lin (V c main_v32) (V c main_v8) (V c main_v22) (V c main_v33) (V c main_v35) (V c main_v34)
        (((cfg1.win 6).blk t).view.emb j)
  rw [stored_apply]
  refine Sage.lin_congr j _ ?_ ?_ ?_ ?_ ?_ ?_
  · intro k
    show V c main_v32 (((cfg1.win 0).blk t).view.emb (ix2 (j 0) k)) = V c main_v32 (ix2 ((((cfg1.win 6).blk t).view.emb j) 0) k)
    refine congrArg (V c main_v32) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 256 + 1 * k.val = k.val; omega
  · show V c main_v8 (((cfg1.win 1).blk t).view.emb (ix2 (j 0) 0)) = V c main_v8 (ix2 ((((cfg1.win 6).blk t).view.emb j) 0) 0)
    refine congrArg (V c main_v8) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 1 + 1 * 0 = 0; omega
  · intro k
    show V c main_v22 (((cfg1.win 2).blk t).view.emb (ix2 (j 0) k)) = V c main_v22 (ix2 ((((cfg1.win 6).blk t).view.emb j) 0) k)
    refine congrArg (V c main_v22) (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 256 + 1 * k.val = k.val; omega
  · intro k
    show V c main_v33 (((cfg1.win 3).blk t).view.emb (ix2 k (j 1))) = V c main_v33 (ix2 k ((((cfg1.win 6).blk t).view.emb j) 1))
    refine congrArg (V c main_v33) (funext fun a => Fin.ext ?_)
    match a with
    | ⟨0, _⟩ => show win1_3.index t (0 : Fin 2) * 256 + 1 * k.val = k.val; omega
    | ⟨1, _⟩ => show win1_3.index t (1 : Fin 2) * 128 + 1 * (j 1).val = win1_6.index t (1 : Fin 2) * 128 + 1 * (j 1).val; omega
  · show V c main_v35 (((cfg1.win 4).blk t).view.emb (ix2 0 (j 1))) = V c main_v35 (ix2 0 ((((cfg1.win 6).blk t).view.emb j) 1))
    refine congrArg (V c main_v35) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_6.index t (1 : Fin 2) * 128 + 1 * (j 1).val; omega
  · intro k
    show V c main_v34 (((cfg1.win 5).blk t).view.emb (ix2 k (j 1))) = V c main_v34 (ix2 k ((((cfg1.win 6).blk t).view.emb j) 1))
    refine congrArg (V c main_v34) (funext fun a => Fin.ext ?_)
    match a with
    | ⟨0, _⟩ => show win1_5.index t (0 : Fin 2) * 256 + 1 * k.val = k.val; omega
    | ⟨1, _⟩ => show win1_5.index t (1 : Fin 2) * 128 + 1 * (j 1).val = win1_6.index t (1 : Fin 2) * 128 + 1 * (j 1).val; omega

/-- An index of the result array lies in point t's block iff each coordinate lies in the block's range on its axis. -/
theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- Every index of the result array is in some point's block: row r is in row block r / 5000. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := block_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the call the result array is the output layer of the arrays as the call found them. -/
theorem result (c : Dev nD) :
    (dat1 V c).arrAt 6 cfg1.N
      = output (V c main_v32) (V c main_v8) (V c main_v22) (V c main_v33) (V c main_v35) (V c main_v34) :=
  (dat1 V c).arrAt_eq_of_cover 6 _ (fun t _ => written_back V c t) covered

end Cert.KernelIdeal.Layer1

end
-- ==== Proof.Whole.lean ====
/-
  The whole computation as one function of the eight argument arrays, on the extended reals.

  The edge list e has a row of source nodes and a row of destination nodes. A source entry below zero is wrapped by
  adding 50000 (the host's rule for a negative index). For an array h of node rows, the sums over the edges add,
  into row d of a zero array, row s of h for every edge (s, d): the host's gather of the source rows followed by
  its scatter-add at the destination rows; these two operations are kept as the host's own and never opened. The
  degree is the same scatter-add of a one per edge: the number of edges into each node, as a column. The hidden
  activations are the clamped mean-aggregating layer (`Sage.lin`, then max with 0) of the summed argument rows,
  the degrees and the argument rows themselves; the result is the same layer without the clamp, at the second
  layer's weights, of the summed hidden rows, the degrees and the hidden rows.
-/
import proofs.«131110_j51908974739870_1_alg».proof.Proof.KernelLayer0
import proofs.«131110_j51908974739870_1_alg».proof.Proof.KernelLayer1

set_option maxRecDepth 16384

noncomputable section

namespace Cert.KernelIdeal.Whole

open Cert.KernelIdeal Cert.KernelIdeal.Gen Idealize.ShloMosaic

/-- The source node of each edge: row 0 of the edge list. -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The destination node of each edge: row 1 of the edge list. -/
def targets (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

variable (s d : (⟨S800000, .i32⟩ : BufTy).Contents (Elt Ideal))

/-- Node numbers as a column of gather indices, a negative one wrapped by adding 50000. -/
def wrappedColumn : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Node numbers as a column of scatter indices. -/
def column : (⟨S800000x1, .i32⟩ : BufTy).Contents (Elt Ideal) :=
  broadcastInDim S800000x1 ![0] bcast_S800000_S800000x1_0 d

/-- The number of edges into each node. -/
def edgeCount : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32)) (column d)
    (broadcastInDim S800000 ![] bcast_S_S800000 (constant (F := Ideal) S_ .f32 0x3F800000#32))

/-- The number of edges into each node, as a column. -/
def degree : (⟨S50000x1, .f32⟩ : BufTy).Contents (Elt Ideal) :=
  shapeCast S50000x1 (edgeCount d) shapeCasts_S50000_S50000x1

/-- For each node, the sum of the 128-channel rows of its edges' sources. -/
def sums128 (x : (⟨S50000x128, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (column d)
    (Host.gather gather_S50000x128_S800000x1_S800000x128_1_0_n_n_0_1_1128 x (wrappedColumn s))

/-- For each node, the sum of the 256-channel rows of its edges' sources. -/
def sums256 (h : (⟨S50000x256, .f32⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) (column d)
    (Host.gather gather_S50000x256_S800000x1_S800000x256_1_0_n_n_0_1_1256 h (wrappedColumn s))

/-- The hidden activations. -/
def hiddenOf (e : (⟨S2x800000, .i32⟩ : BufTy).Contents (Elt Ideal)) (x : (⟨S50000x128, .f32⟩ : BufTy).Contents (Elt Ideal))
    (w1l : (⟨S256x128, .f32⟩ : BufTy).Contents (Elt Ideal)) (b1 : (⟨S256, .f32⟩ : BufTy).Contents (Elt Ideal))
    (w1r : (⟨S256x128, .f32⟩ : BufTy).Contents (Elt Ideal)) : (⟨S50000x256, .f32⟩ : BufTy).Contents (Elt Ideal) :=
  Layer0.hidden (sums128 (sources e) (targets e) x) (degree (targets e)) x (transpose S128x256 [1, 0] w1l transposes_S256x128_S128x256_1_0)
    (shapeCast _ b1 shapeCasts_S256_S1x256) (transpose S128x256 [1, 0] w1r transposes_S256x128_S128x256_1_0)

/-- The result. -/
def outputOf (e : (⟨S2x800000, .i32⟩ : BufTy).Contents (Elt Ideal)) (x : (⟨S50000x128, .f32⟩ : BufTy).Contents (Elt Ideal))
    (w1l : (⟨S256x128, .f32⟩ : BufTy).Contents (Elt Ideal)) (b1 : (⟨S256, .f32⟩ : BufTy).Contents (Elt Ideal))
    (w1r : (⟨S256x128, .f32⟩ : BufTy).Contents (Elt Ideal)) (w2l : (⟨S128x256, .f32⟩ : BufTy).Contents (Elt Ideal))
    (b2 : (⟨S128, .f32⟩ : BufTy).Contents (Elt Ideal)) (w2r : (⟨S128x256, .f32⟩ : BufTy).Contents (Elt Ideal)) :
    (⟨S50000x128, .f32⟩ : BufTy).Contents (Elt Ideal) :=
  Layer1.output (sums256 (sources e) (targets e) (hiddenOf e x w1l b1 w1r)) (degree (targets e)) (hiddenOf e x w1l b1 w1r)
    (transpose S256x128 [1, 0] w2l transposes_S128x256_S256x128_1_0) (shapeCast _ b2 shapeCasts_S128_S1x128)
    (transpose S256x128 [1, 0] w2r transposes_S128x256_S256x128_1_0)

end Cert.KernelIdeal.Whole

end
-- ==== Proof.KernelValue.lean ====
/-
  The kernel program's result as the function of its arguments.

  Reading the run backwards from the result buffer: after the second pallas_call the result array is the output
  layer of the arrays that call was entered with. Those are what the second stretch of host operations leaves: the
  hidden rows summed over the edges, the transposed second-layer weights and the bias as a row, computed from what
  the first call left; the degree column and the hidden rows themselves pass through untouched. What the first call
  left in its result array is the hidden layer of the arrays it was entered with, which the first stretch of host
  operations computed from the launch contents: the argument rows summed over the edges, the degree column, the
  transposed first-layer weights and the bias as a row. A buffer that a stretch or a call does not write keeps its
  contents across it.
-/
import proofs.«131110_j51908974739870_1_alg».proof.Proof.KernelRun
import proofs.«131110_j51908974739870_1_alg».proof.Proof.Whole
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo
open Idealize.ShloMosaic.Pipeline (Dat)

/-! ## The two stretches of host operations, from any contents -/

section Stretches

variable (Z : Valuation τ sig (Elt Ideal))

set_option maxHeartbeats 2000000 in
theorem first_v18 : StableHlo.after hostOps0 Z (Proc.devRef .tc main_v18)
    = Whole.sums128 (Whole.sources (Z (Proc.devRef .tc main_arg1))) (Whole.targets (Z (Proc.devRef .tc main_arg1))) (Z (Proc.devRef .tc main_arg0)) := by
  after_results_simp; rfl
set_option maxHeartbeats 2000000 in
theorem first_v8 : StableHlo.after hostOps0 Z (Proc.devRef .tc main_v8) = Whole.degree (Whole.targets (Z (Proc.devRef .tc main_arg1))) := by
  after_results_simp; rfl
set_option maxHeartbeats 2000000 in
theorem first_arg0 : StableHlo.after hostOps0 Z (Proc.devRef .tc main_arg0) = Z (Proc.devRef .tc main_arg0) := by
  after_results_simp
set_option maxHeartbeats 2000000 in
theorem first_v19 : StableHlo.after hostOps0 Z (Proc.devRef .tc main_v19)
    = transpose S128x256 [1, 0] (Z (Proc.devRef .tc main_arg2)) transposes_S256x128_S128x256_1_0 := by
  after_results_simp
set_option maxHeartbeats 2000000 in
theorem first_v21 : StableHlo.after hostOps0 Z (Proc.devRef .tc main_v21)
    = shapeCast S1x256 (Z (Proc.devRef .tc main_arg3)) shapeCasts_S256_S1x256 := by
  after_results_simp; rfl
set_option maxHeartbeats 2000000 in
theorem first_v20 : StableHlo.after hostOps0 Z (Proc.devRef .tc main_v20)
    = transpose S128x256 [1, 0] (Z (Proc.devRef .tc main_arg4)) transposes_S256x128_S128x256_1_0 := by
  after_results_simp
set_option maxHeartbeats 2000000 in
theorem first_v1 : StableHlo.after hostOps0 Z (Proc.devRef .tc main_v1) = Whole.sources (Z (Proc.devRef .tc main_arg1)) := by
  after_results_simp; rfl
set_option maxHeartbeats 2000000 in
theorem first_v3 : StableHlo.after hostOps0 Z (Proc.devRef .tc main_v3) = Whole.targets (Z (Proc.devRef .tc main_arg1)) := by
  after_results_simp; rfl
set_option maxHeartbeats 2000000 in
theorem first_arg5 : StableHlo.after hostOps0 Z (Proc.devRef .tc main_arg5) = Z (Proc.devRef .tc main_arg5) := by
  after_results_simp
set_option maxHeartbeats 2000000 in
theorem first_arg6 : StableHlo.after hostOps0 Z (Proc.devRef .tc main_arg6) = Z (Proc.devRef .tc main_arg6) := by
  after_results_simp
set_option maxHeartbeats 2000000 in
theorem first_arg7 : StableHlo.after hostOps0 Z (Proc.devRef .tc main_arg7) = Z (Proc.devRef .tc main_arg7) := by
  after_results_simp

set_option maxHeartbeats 2000000 in
theorem second_v32 : StableHlo.after hostOps1 Z (Proc.devRef .tc main_v32)
    = Whole.sums256 (Z (Proc.devRef .tc main_v1)) (Z (Proc.devRef .tc main_v3)) (Z (Proc.devRef .tc main_v22)) := by
  after_results_simp; rfl
set_option maxHeartbeats 2000000 in
theorem second_v8 : StableHlo.after hostOps1 Z (Proc.devRef .tc main_v8) = Z (Proc.devRef .tc main_v8) := by
  after_results_simp
set_option maxHeartbeats 2000000 in
theorem second_v22 : StableHlo.after hostOps1 Z (Proc.devRef .tc main_v22) = Z (Proc.devRef .tc main_v22) := by
  after_results_simp
set_option maxHeartbeats 2000000 in
theorem second_v33 : StableHlo.after hostOps1 Z (Proc.devRef .tc main_v33)
    = transpose S256x128 [1, 0] (Z (Proc.devRef .tc main_arg5)) transposes_S128x256_S256x128_1_0 := by
  after_results_simp
set_option maxHeartbeats 2000000 in
theorem second_v35 : StableHlo.after hostOps1 Z (Proc.devRef .tc main_v35)
    = shapeCast S1x128 (Z (Proc.devRef .tc main_arg6)) shapeCasts_S128_S1x128 := by
  after_results_simp; rfl
set_option maxHeartbeats 2000000 in
theorem second_v34 : StableHlo.after hostOps1 Z (Proc.devRef .tc main_v34)
    = transpose S256x128 [1, 0] (Z (Proc.devRef .tc main_arg7)) transposes_S128x256_S256x128_1_0 := by
  after_results_simp

end Stretches

/-! ## The run read back from the result buffer -/

variable (m : (ℓ : Loc nD τ sig) → Buf (Elt Ideal) ℓ) (ρ : Dev nD → PrngReg) (c : Dev nD)

/-- What the first call finds in the array of summed rows. -/
theorem entry0_v18 : V1 m ρ c main_v18
    = Whole.sums128 (Whole.sources (m ((c : Thread nD τ).loc main_arg1))) (Whole.targets (m ((c : Thread nD τ).loc main_arg1)))
        (m ((c : Thread nD τ).loc main_arg0)) :=
  first_v18 (W0 m ρ c)
theorem entry0_v8 : V1 m ρ c main_v8 = Whole.degree (Whole.targets (m ((c : Thread nD τ).loc main_arg1))) :=
  first_v8 (W0 m ρ c)
theorem entry0_arg0 : V1 m ρ c main_arg0 = m ((c : Thread nD τ).loc main_arg0) :=
  first_arg0 (W0 m ρ c)
theorem entry0_v19 : V1 m ρ c main_v19
    = transpose S128x256 [1, 0] (m ((c : Thread nD τ).loc main_arg2)) transposes_S256x128_S128x256_1_0 :=
  first_v19 (W0 m ρ c)
theorem entry0_v21 : V1 m ρ c main_v21 = shapeCast S1x256 (m ((c : Thread nD τ).loc main_arg3)) shapeCasts_S256_S1x256 :=
  first_v21 (W0 m ρ c)
theorem entry0_v20 : V1 m ρ c main_v20
    = transpose S128x256 [1, 0] (m ((c : Thread nD τ).loc main_arg4)) transposes_S256x128_S128x256_1_0 :=
  first_v20 (W0 m ρ c)

/-- What the first call leaves in its result array: the hidden activations. -/
theorem exit0_v22 : W2 m ρ c (Proc.devRef .tc main_v22)
    = Whole.hiddenOf (m ((c : Thread nD τ).loc main_arg1)) (m ((c : Thread nD τ).loc main_arg0)) (m ((c : Thread nD τ).loc main_arg2))
        (m ((c : Thread nD τ).loc main_arg3)) (m ((c : Thread nD τ).loc main_arg4)) := by
  refine (W2_arr m ρ c 6).trans ((Layer0.result (V1 m ρ) c).trans ?_)
  rw [entry0_v18 m ρ c, entry0_v8 m ρ c, entry0_arg0 m ρ c, entry0_v19 m ρ c, entry0_v21 m ρ c, entry0_v20 m ρ c]
  rfl

/-- Buffers the first call does not write keep, across it, what the first stretch left. -/
theorem exit0_v1 : W2 m ρ c (Proc.devRef .tc main_v1) = Whole.sources (m ((c : Thread nD τ).loc main_arg1)) :=
  (W2_of_ne m ρ c main_v1 (by decide)).trans (first_v1 (W0 m ρ c))
theorem exit0_v3 : W2 m ρ c (Proc.devRef .tc main_v3) = Whole.targets (m ((c : Thread nD τ).loc main_arg1)) :=
  (W2_of_ne m ρ c main_v3 (by decide)).trans (first_v3 (W0 m ρ c))
theorem exit0_arg5 : W2 m ρ c (Proc.devRef .tc main_arg5) = m ((c : Thread nD τ).loc main_arg5) :=
  (W2_of_ne m ρ c main_arg5 (by decide)).trans (first_arg5 (W0 m ρ c))
theorem exit0_arg6 : W2 m ρ c (Proc.devRef .tc main_arg6) = m ((c : Thread nD τ).loc main_arg6) :=
  (W2_of_ne m ρ c main_arg6 (by decide)).trans (first_arg6 (W0 m ρ c))
theorem exit0_arg7 : W2 m ρ c (Proc.devRef .tc main_arg7) = m ((c : Thread nD τ).loc main_arg7) :=
  (W2_of_ne m ρ c main_arg7 (by decide)).trans (first_arg7 (W0 m ρ c))
/-- The degree column is an input of the first call: it is staged and never written back. -/
theorem exit0_v8 : W2 m ρ c (Proc.devRef .tc main_v8) = Whole.degree (Whole.targets (m ((c : Thread nD τ).loc main_arg1))) :=
  (W2_arr m ρ c 1).trans (((dat0 (V1 m ρ) c).arrAt_in 1 rfl _).trans ((A_eq0 (V1 m ρ) c 1).trans (entry0_v8 m ρ c)))

/-- What the second call finds in its arrays. -/
theorem entry1_v32 : V3 m ρ c main_v32
    = Whole.sums256 (Whole.sources (m ((c : Thread nD τ).loc main_arg1))) (Whole.targets (m ((c : Thread nD τ).loc main_arg1)))
        (Whole.hiddenOf (m ((c : Thread nD τ).loc main_arg1)) (m ((c : Thread nD τ).loc main_arg0)) (m ((c : Thread nD τ).loc main_arg2))
          (m ((c : Thread nD τ).loc main_arg3)) (m ((c : Thread nD τ).loc main_arg4))) := by
  refine (second_v32 (W2 m ρ c)).trans ?_
  rw [exit0_v1 m ρ c, exit0_v3 m ρ c, exit0_v22 m ρ c]
theorem entry1_v8 : V3 m ρ c main_v8 = Whole.degree (Whole.targets (m ((c : Thread nD τ).loc main_arg1))) :=
  (second_v8 (W2 m ρ c)).trans (exit0_v8 m ρ c)
theorem entry1_v22 : V3 m ρ c main_v22
    = Whole.hiddenOf (m ((c : Thread nD τ).loc main_arg1)) (m ((c : Thread nD τ).loc main_arg0)) (m ((c : Thread nD τ).loc main_arg2))
        (m ((c : Thread nD τ).loc main_arg3)) (m ((c : Thread nD τ).loc main_arg4)) :=
  (second_v22 (W2 m ρ c)).trans (exit0_v22 m ρ c)
theorem entry1_v33 : V3 m ρ c main_v33
    = transpose S256x128 [1, 0] (m ((c : Thread nD τ).loc main_arg5)) transposes_S128x256_S256x128_1_0 := by
  refine (second_v33 (W2 m ρ c)).trans ?_
  rw [exit0_arg5 m ρ c]
theorem entry1_v35 : V3 m ρ c main_v35 = shapeCast S1x128 (m ((c : Thread nD τ).loc main_arg6)) shapeCasts_S128_S1x128 := by
  refine (second_v35 (W2 m ρ c)).trans ?_
  rw [exit0_arg6 m ρ c]
theorem entry1_v34 : V3 m ρ c main_v34
    = transpose S256x128 [1, 0] (m ((c : Thread nD τ).loc main_arg7)) transposes_S128x256_S256x128_1_0 := by
  refine (second_v34 (W2 m ρ c)).trans ?_
  rw [exit0_arg7 m ρ c]

/-- What the second call leaves in the result array: the result as the function of the arguments. -/
theorem result : W4 m ρ c (Proc.devRef .tc main_v36)
    = Whole.outputOf (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ((Layer1.result (V3 m ρ) c).trans ?_)
  rw [entry1_v32 m ρ c, entry1_v8 m ρ c, entry1_v22 m ρ c, entry1_v33 m ρ c, entry1_v35 m ρ c, entry1_v34 m ρ c]
  rfl

/-- The run with the result named as the function of the arguments, the arguments unchanged. -/
theorem run_value : θ_run defs (onTc (τ := τ) (main (F := Ideal))) ⟨m, fun _ => 0, ρ⟩ (fun r => ∀ c : Dev nD,
      r.2.mem ((c.tc : Thread nD τ).loc main_v36)
        = Whole.outputOf (m ((c : Thread nD τ).loc main_arg1)) (m ((c : Thread nD τ).loc main_arg0)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (run (F := Ideal) m ρ)

end Cert.KernelIdeal.Named

end
-- ==== Proof.LibRowsCols.lean ====
/-
  Rows and columns re-laid, read at coordinates.

  A vector of n entries becomes a 1×n row by a unit leading axis and an m-vector an m×1 column by a unit trailing
  axis; a row is repeated down m rows and a column across n columns. Read at coordinates, each re-laying only
  re-reads its operand: the row made from v holds v(q) at (0, q); the column made from v holds v(p) at (p, 0); a
  row r repeated down the rows holds r(0, q) at (p, q); a column c repeated across holds c(p, 0) at (p, q). The
  same holds when the unit axis is introduced by a change of shape that keeps the row-major order, because an
  entry's row-major position does not move. Stated for any element type and, where the extent decides which axis is
  the unit one, for extents greater than one.
-/
import Mathlib
import Idealize.ShloMosaic.PureOps.Ideal
import Idealize.ShloMosaic.Lib.ValueIdx
import Idealize.ShloMosaic.Lib.Pipeline.Value

noncomputable section

namespace Cert.LibRowsCols

open Idealize.ShloMosaic Idealize.ShloMosaic.ValueIdx

variable {α : Type}

/-- A vector made a row by a broadcast that sends its axis to axis 1: the row holds v(q) at (0, q). -/
theorem row_of_vec {n : Nat} (hn : n ≠ 1) (h : (⟨1, ![n]⟩ : Shape).BroadcastsInDim ⟨2, ![1, n]⟩ ![1])
    (v : (⟨1, ![n]⟩ : Shape).Idx → α) (z : Fin 1) (q : Fin n) :
    broadcastInDim ⟨2, ![1, n]⟩ ![1] h v (ix2 z q) = v (ix1 q) := by
  refine broadcastInDim_apply _ h v _ (ix1 q) fun a => ?_
  match a with
  | ⟨0, _⟩ => exact (if_neg hn).symm

/-- A vector made a column by a broadcast that sends its axis to axis 0: the column holds v(p) at (p, 0). -/
theorem col_of_vec {m : Nat} (hm : m ≠ 1) (h : (⟨1, ![m]⟩ : Shape).BroadcastsInDim ⟨2, ![m, 1]⟩ ![0])
    (v : (⟨1, ![m]⟩ : Shape).Idx → α) (p : Fin m) (z : Fin 1) :
    broadcastInDim ⟨2, ![m, 1]⟩ ![0] h v (ix2 p z) = v (ix1 p) := by
  refine broadcastInDim_apply _ h v _ (ix1 p) fun a => ?_
  match a with
  | ⟨0, _⟩ => exact (if_neg hm).symm

/-- A row repeated down m rows holds r(0, q) at (p, q). -/
theorem rows_of_row {m n : Nat} (hn : n ≠ 1) (h : (⟨2, ![1, n]⟩ : Shape).BroadcastsInDim ⟨2, ![m, n]⟩ ![0, 1])
    (r : (⟨2, ![1, n]⟩ : Shape).Idx → α) (p : Fin m) (q : Fin n) :
    broadcastInDim ⟨2, ![m, n]⟩ ![0, 1] h r (ix2 p q) = r (ix2 0 q) := by
  refine broadcastInDim_apply _ h r _ (ix2 0 q) fun a => ?_
  match a with
  | ⟨0, _⟩ => exact (if_pos rfl).symm
  | ⟨1, _⟩ => exact (if_neg hn).symm

/-- A column repeated across n columns holds c(p, 0) at (p, q). -/
theorem cols_of_col {m n : Nat} (hm : m ≠ 1) (h : (⟨2, ![m, 1]⟩ : Shape).BroadcastsInDim ⟨2, ![m, n]⟩ ![0, 1])
    (c : (⟨2, ![m, 1]⟩ : Shape).Idx → α) (p : Fin m) (q : Fin n) :
    broadcastInDim ⟨2, ![m, n]⟩ ![0, 1] h c (ix2 p q) = c (ix2 p 0) := by
  refine broadcastInDim_apply _ h c _ (ix2 p 0) fun a => ?_
  match a with
  | ⟨0, _⟩ => exact (if_neg hm).symm
  | ⟨1, _⟩ => exact (if_pos rfl).symm

/-- A vector reshaped to a row keeps its order: the row holds v(q) at (0, q). -/
theorem row_of_vec_cast {n : Nat} (h : (⟨1, ![n]⟩ : Shape).ShapeCasts ⟨2, ![1, n]⟩)
    (v : (⟨1, ![n]⟩ : Shape).Idx → α) (z : Fin 1) (q : Fin n) :
    shapeCast ⟨2, ![1, n]⟩ v h (ix2 z q) = v (ix1 q) := by
  refine shapeCast_apply v h _ (ix1 q) ?_
  rw [Shape.rowMajor_val_one, Shape.rowMajor_val_two]
  have hz : z.val = 0 := by omega
  show q.val = z.val * n + q.val
  rw [hz, Nat.zero_mul, Nat.zero_add]

/-- A vector reshaped to a column keeps its order: the column holds v(p) at (p, 0). -/
theorem col_of_vec_cast {m : Nat} (h : (⟨1, ![m]⟩ : Shape).ShapeCasts ⟨2, ![m, 1]⟩)
    (v : (⟨1, ![m]⟩ : Shape).Idx → α) (p : Fin m) (z : Fin 1) :
    shapeCast ⟨2, ![m, 1]⟩ v h (ix2 p z) = v (ix1 p) := by
  refine shapeCast_apply v h _ (ix1 p) ?_
  rw [Shape.rowMajor_val_one, Shape.rowMajor_val_two]
  have hz : z.val = 0 := by omega
  show p.val = p.val * 1 + z.val
  rw [hz, Nat.mul_one, Nat.add_zero]

end Cert.LibRowsCols

end
-- ==== Proof.RefValue.lean ====
/-
  The reference program's result is the same function of the argument arrays.

  The reference computes each layer on whole arrays: it divides the summed neighbour rows by max(degree, 1) (the
  degree vector given a unit axis and repeated across the channels), multiplies by the transposed left weights, adds
  the bias (the bias vector given a unit axis and repeated down the rows), and then adds the product of the node
  rows with the transposed right weights. Entry by entry this is the layer of `Sage.lin` with the bias added before
  the node's own term instead of after it, and addition on the extended reals does not care. The degree and bias
  vectors given their unit axis by a broadcast hold the same entries as when given it by a change of shape. The
  sums over edges are the host's gather and scatter-add, the same operations on both sides, and are not opened.
-/
import proofs.«131110_j51908974739870_1_alg».proof.Proof.Gen.ReferenceIdeal.Read
import proofs.«131110_j51908974739870_1_alg».proof.Proof.Whole
import proofs.«131110_j51908974739870_1_alg».proof.Proof.LibRowsCols

set_option maxRecDepth 16384

noncomputable section

open scoped BigOperators

namespace Cert.ReferenceIdeal.Layers

open Cert.ReferenceIdeal Cert.ReferenceIdeal.Gen Cert.ReferenceIdeal.Read
open Idealize.ShloMosaic Idealize.ShloMosaic.ValueIdx

/-- The host's product of 50000 rows of 128 channels with a 128 × 256 matrix, at (p, q). -/
theorem product1_apply (L : FVec Ideal S50000x128 .f32) (R : FVec Ideal S128x256 .f32) (p : Fin 50000) (q : Fin 256) :
    Host.dotGeneral (F := Ideal) (φ₁ := .f32) (φ₂ := .f32) dot_S50000x128_S128x256_S50000x256_1_0_0_1_n_n none L R (ix2 p q)
      = ∑ k : Fin 128, L (ix2 p k) * R (ix2 k q) :=
  PlainDot.dotGeneral_apply 50000 128 256 none .single L R p q

/-- The host's product of 50000 rows of 256 channels with a 256 × 128 matrix, at (p, q). -/
theorem product2_apply (L : FVec Ideal S50000x256 .f32) (R : FVec Ideal S256x128 .f32) (p : Fin 50000) (q : Fin 128) :
    Host.dotGeneral (F := Ideal) (φ₁ := .f32) (φ₂ := .f32) dot_S50000x256_S256x128_S50000x128_1_0_0_1_n_n none L R (ix2 p q)
      = ∑ k : Fin 256, L (ix2 p k) * R (ix2 k q) :=
  PlainDot.dotGeneral_apply 50000 256 128 none .single L R p q

/-- The reference's first layer before the clamp, as an expression of whole arrays, is `Sage.lin` entry by entry. -/
theorem layer1_apply (A : FVec Ideal S50000x128 .f32) (dv : FVec Ideal S50000 .f32)
    (X : FVec Ideal S50000x128 .f32) (wl : FVec Ideal S128x256 .f32)
    (b : FVec Ideal S256 .f32) (wr : FVec Ideal S128x256 .f32) (i : S50000x256.Idx) :
    addf (F := Ideal) (addf (F := Ideal) (Host.dotGeneral (F := Ideal) (φ₁ := .f32) (φ₂ := .f32) dot_S50000x128_S128x256_S50000x256_1_0_0_1_n_n none
        (Host.divf (F := Ideal) A (broadcastInDim S50000x128 ![0, 1] bcast_S50000x1_S50000x128_0_1 (broadcastInDim S50000x1 ![0] bcast_S50000_S50000x1_0
          (maximumf (F := Ideal) dv (broadcastInDim S50000 ![] bcast_S_S50000 (constant (F := Ideal) S_ .f32 0x3F800000#32)))))) wl)
        (broadcastInDim S50000x256 ![0, 1] bcast_S1x256_S50000x256_0_1 (broadcastInDim S1x256 ![1] bcast_S256_S1x256_1 b)))
      (Host.dotGeneral (F := Ideal) (φ₁ := .f32) (φ₂ := .f32) dot_S50000x128_S128x256_S50000x256_1_0_0_1_n_n none X wr) i
    = Cert.Sage.lin A (shapeCast Cert.KernelIdeal.S50000x1 dv Cert.KernelIdeal.Gen.shapeCasts_S50000_S50000x1) X wl
        (shapeCast Cert.KernelIdeal.S1x256 b Cert.KernelIdeal.Gen.shapeCasts_S256_S1x256) wr i := by
  obtain ⟨p, q, rfl⟩ : ∃ (p : Fin 50000) (q : Fin 256), i = ix2 p q := ⟨i 0, i 1, eq_ix2 i⟩
  have h1 : ∀ k : Fin 128, Host.divf (F := Ideal) A (broadcastInDim S50000x128 ![0, 1] bcast_S50000x1_S50000x128_0_1 (broadcastInDim S50000x1 ![0] bcast_S50000_S50000x1_0
        (maximumf (F := Ideal) dv (broadcastInDim S50000 ![] bcast_S_S50000 (constant (F := Ideal) S_ .f32 0x3F800000#32))))) (ix2 p k)
      = Ideal.div (A (ix2 p k)) (max (shapeCast Cert.KernelIdeal.S50000x1 dv Cert.KernelIdeal.Gen.shapeCasts_S50000_S50000x1 (ix2 p 0)) Cert.Sage.one) := fun k => by
    show Ideal.div (A (ix2 p k)) (broadcastInDim S50000x128 ![0, 1] bcast_S50000x1_S50000x128_0_1 (broadcastInDim S50000x1 ![0] bcast_S50000_S50000x1_0
        (maximumf (F := Ideal) dv (broadcastInDim S50000 ![] bcast_S_S50000 (constant (F := Ideal) S_ .f32 0x3F800000#32)))) (ix2 p k)) = _
    rw [Cert.LibRowsCols.cols_of_col (m := 50000) (n := 128) (by decide), Cert.LibRowsCols.col_of_vec (m := 50000) (by decide),
      Cert.LibRowsCols.col_of_vec_cast]
    rfl
  have h2 : broadcastInDim S50000x256 ![0, 1] bcast_S1x256_S50000x256_0_1 (broadcastInDim S1x256 ![1] bcast_S256_S1x256_1 b) (ix2 p q)
      = shapeCast Cert.KernelIdeal.S1x256 b Cert.KernelIdeal.Gen.shapeCasts_S256_S1x256 (ix2 0 q) := by
    rw [Cert.LibRowsCols.rows_of_row (m := 50000) (n := 256) (by decide), Cert.LibRowsCols.row_of_vec (n := 256) (by decide),
      Cert.LibRowsCols.row_of_vec_cast]
  rw [addf_apply, addf_apply, product1_apply, product1_apply, h2]
  simp only [h1]
  exact Cert.Sage.lin_bias_first A _ X wl _ wr (ix2 p q)

/-- The reference's second layer, as an expression of whole arrays, is `Sage.lin` entry by entry. -/
theorem layer2_apply (A : FVec Ideal S50000x256 .f32) (dv : FVec Ideal S50000 .f32)
    (X : FVec Ideal S50000x256 .f32) (wl : FVec Ideal S256x128 .f32)
    (b : FVec Ideal S128 .f32) (wr : FVec Ideal S256x128 .f32) (i : S50000x128.Idx) :
    addf (F := Ideal) (addf (F := Ideal) (Host.dotGeneral (F := Ideal) (φ₁ := .f32) (φ₂ := .f32) dot_S50000x256_S256x128_S50000x128_1_0_0_1_n_n none
        (Host.divf (F := Ideal) A (broadcastInDim S50000x256 ![0, 1] bcast_S50000x1_S50000x256_0_1 (broadcastInDim S50000x1 ![0] bcast_S50000_S50000x1_0
          (maximumf (F := Ideal) dv (broadcastInDim S50000 ![] bcast_S_S50000 (constant (F := Ideal) S_ .f32 0x3F800000#32)))))) wl)
        (broadcastInDim S50000x128 ![0, 1] bcast_S1x128_S50000x128_0_1 (broadcastInDim S1x128 ![1] bcast_S128_S1x128_1 b)))
      (Host.dotGeneral (F := Ideal) (φ₁ := .f32) (φ₂ := .f32) dot_S50000x256_S256x128_S50000x128_1_0_0_1_n_n none X wr) i
    = Cert.Sage.lin A (shapeCast Cert.KernelIdeal.S50000x1 dv Cert.KernelIdeal.Gen.shapeCasts_S50000_S50000x1) X wl
        (shapeCast Cert.KernelIdeal.S1x128 b Cert.KernelIdeal.Gen.shapeCasts_S128_S1x128) wr i := by
  obtain ⟨p, q, rfl⟩ : ∃ (p : Fin 50000) (q : Fin 128), i = ix2 p q := ⟨i 0, i 1, eq_ix2 i⟩
  have h1 : ∀ k : Fin 256, Host.divf (F := Ideal) A (broadcastInDim S50000x256 ![0, 1] bcast_S50000x1_S50000x256_0_1 (broadcastInDim S50000x1 ![0] bcast_S50000_S50000x1_0
        (maximumf (F := Ideal) dv (broadcastInDim S50000 ![] bcast_S_S50000 (constant (F := Ideal) S_ .f32 0x3F800000#32))))) (ix2 p k)
      = Ideal.div (A (ix2 p k)) (max (shapeCast Cert.KernelIdeal.S50000x1 dv Cert.KernelIdeal.Gen.shapeCasts_S50000_S50000x1 (ix2 p 0)) Cert.Sage.one) := fun k => by
    show Ideal.div (A (ix2 p k)) (broadcastInDim S50000x256 ![0, 1] bcast_S50000x1_S50000x256_0_1 (broadcastInDim S50000x1 ![0] bcast_S50000_S50000x1_0
        (maximumf (F := Ideal) dv (broadcastInDim S50000 ![] bcast_S_S50000 (constant (F := Ideal) S_ .f32 0x3F800000#32)))) (ix2 p k)) = _
    rw [Cert.LibRowsCols.cols_of_col (m := 50000) (n := 256) (by decide), Cert.LibRowsCols.col_of_vec (m := 50000) (by decide),
      Cert.LibRowsCols.col_of_vec_cast]
    rfl
  have h2 : broadcastInDim S50000x128 ![0, 1] bcast_S1x128_S50000x128_0_1 (broadcastInDim S1x128 ![1] bcast_S128_S1x128_1 b) (ix2 p q)
      = shapeCast Cert.KernelIdeal.S1x128 b Cert.KernelIdeal.Gen.shapeCasts_S128_S1x128 (ix2 0 q) := by
    rw [Cert.LibRowsCols.rows_of_row (m := 50000) (n := 128) (by decide), Cert.LibRowsCols.row_of_vec (n := 128) (by decide),
      Cert.LibRowsCols.row_of_vec_cast]
  rw [addf_apply, addf_apply, product2_apply, product2_apply, h2]
  simp only [h1]
  exact Cert.Sage.lin_bias_first A _ X wl _ wr (ix2 p q)

variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S128x256, .f32⟩ : BufTy).Contents (Elt Ideal))
  (x6 : (⟨S128, .f32⟩ : BufTy).Contents (Elt Ideal)) (x7 : (⟨S128x256, .f32⟩ : BufTy).Contents (Elt Ideal))

/-! ## The reference's sums over the edges are the host's gather and scatter-add, spelt the same way -/

theorem sums128_eq : val_main_v13 (F := Ideal) x0 x1
    = Cert.KernelIdeal.Whole.sums128 (Cert.KernelIdeal.Whole.sources x1) (Cert.KernelIdeal.Whole.targets x1) x0 := by
  unfold val_main_v13 val_main_v10 Cert.KernelIdeal.Whole.sums128
  rw [show val_main_v12 (F := Ideal) x1 = Cert.KernelIdeal.Whole.column (Cert.KernelIdeal.Whole.targets x1) from rfl,
    show val_main_v9 (F := Ideal) x1 = Cert.KernelIdeal.Whole.wrappedColumn (Cert.KernelIdeal.Whole.sources x1) from rfl]
  rfl

theorem count1_eq : val_main_v17 (F := Ideal) x1 = Cert.KernelIdeal.Whole.edgeCount (Cert.KernelIdeal.Whole.targets x1) := by
  unfold val_main_v17 Cert.KernelIdeal.Whole.edgeCount
  rw [show val_main_v16 (F := Ideal) x1 = Cert.KernelIdeal.Whole.column (Cert.KernelIdeal.Whole.targets x1) from rfl]
  rfl

theorem sums256_eq : val_main_v45 (F := Ideal) x0 x1 x2 x3 x4
    = Cert.KernelIdeal.Whole.sums256 (Cert.KernelIdeal.Whole.sources x1) (Cert.KernelIdeal.Whole.targets x1)
        (val_main_v31 (F := Ideal) x0 x1 x2 x3 x4) := by
  unfold val_main_v45 val_main_v42 Cert.KernelIdeal.Whole.sums256
  rw [show val_main_v44 (F := Ideal) x1 = Cert.KernelIdeal.Whole.column (Cert.KernelIdeal.Whole.targets x1) from rfl,
    show val_main_v41 (F := Ideal) x1 = Cert.KernelIdeal.Whole.wrappedColumn (Cert.KernelIdeal.Whole.sources x1) from rfl]
  rfl

theorem count2_eq : val_main_v49 (F := Ideal) x1 = Cert.KernelIdeal.Whole.edgeCount (Cert.KernelIdeal.Whole.targets x1) := by
  unfold val_main_v49 Cert.KernelIdeal.Whole.edgeCount
  rw [show val_main_v48 (F := Ideal) x1 = Cert.KernelIdeal.Whole.column (Cert.KernelIdeal.Whole.targets x1) from rfl]
  rfl

/-! ## The two layers -/

/-- The reference's first layer before the clamp, entry by entry. -/
theorem preclamp_apply (i : S50000x256.Idx) : val_main_v30 (F := Ideal) x0 x1 x2 x3 x4 i
    = Cert.Sage.lin (Cert.KernelIdeal.Whole.sums128 (Cert.KernelIdeal.Whole.sources x1) (Cert.KernelIdeal.Whole.targets x1) x0)
        (Cert.KernelIdeal.Whole.degree (Cert.KernelIdeal.Whole.targets x1)) x0
        (transpose Cert.KernelIdeal.S128x256 [1, 0] x2 Cert.KernelIdeal.Gen.transposes_S256x128_S128x256_1_0)
        (shapeCast Cert.KernelIdeal.S1x256 x3 Cert.KernelIdeal.Gen.shapeCasts_S256_S1x256)
        (transpose Cert.KernelIdeal.S128x256 [1, 0] x4 Cert.KernelIdeal.Gen.transposes_S256x128_S128x256_1_0) i := by
  have h := layer1_apply (val_main_v13 (F := Ideal) x0 x1) (val_main_v17 (F := Ideal) x1) x0 (val_main_v23 (F := Ideal) x2) x3
    (val_main_v28 (F := Ideal) x4) i
  have h30 : val_main_v30 (F := Ideal) x0 x1 x2 x3 x4 i = _ := Eq.trans (by
    unfold val_main_v30 val_main_v27 val_main_v24 val_main_v29 val_main_v26 val_main_v25 val_main_v22 val_main_v21 val_main_v20
      val_main_v19 val_main_v18 val_main_cst_3
    rfl) h
  rw [h30, sums128_eq, count1_eq]
  unfold Cert.KernelIdeal.Whole.degree
  rfl

/-- The reference's hidden activations are the hidden activations. -/
theorem hidden_eq : val_main_v31 (F := Ideal) x0 x1 x2 x3 x4 = Cert.KernelIdeal.Whole.hiddenOf x1 x0 x2 x3 x4 := by
  funext i
  rw [val_main_v31_apply, preclamp_apply]
  unfold Cert.KernelIdeal.Whole.hiddenOf
  rfl

/-- The reference's result is the result. -/
theorem output_eq : val_main_v62 (F := Ideal) x0 x1 x2 x3 x4 x5 x6 x7 = Cert.KernelIdeal.Whole.outputOf x1 x0 x2 x3 x4 x5 x6 x7 := by
  funext i
  have h := layer2_apply (val_main_v45 (F := Ideal) x0 x1 x2 x3 x4) (val_main_v49 (F := Ideal) x1) (val_main_v31 (F := Ideal) x0 x1 x2 x3 x4)
    (val_main_v55 (F := Ideal) x5) x6 (val_main_v60 (F := Ideal) x7) i
  have h62 : val_main_v62 (F := Ideal) x0 x1 x2 x3 x4 x5 x6 x7 i = _ := Eq.trans (by
    unfold val_main_v62 val_main_v59 val_main_v56 val_main_v61 val_main_v58 val_main_v57 val_main_v54 val_main_v53 val_main_v52
      val_main_v51 val_main_v50 val_main_cst_9
    rfl) h
  rw [h62, sums256_eq, count2_eq, hidden_eq]
  unfold Cert.KernelIdeal.Whole.outputOf Cert.KernelIdeal.Whole.degree
  rfl

end Cert.ReferenceIdeal.Layers

end
-- ==== Proof.lean ====
/-
  A two-layer mean-aggregating graph network: a kernel program against its whole-array reference, on the extended reals.

  Both programs sum, for every node, the feature rows of the sources of its incoming edges (a gather of rows followed
  by a scatter-add, on the host in both programs and the same operations in both), divide by max(in-degree, 1),
  apply a linear layer to the mean and another to the node's own row, add a bias, clamp at zero, and repeat the same
  without the clamp on the hidden rows. The kernel program does the per-row part in two pallas_calls over ten blocks
  of 5000 rows, with the weights transposed and the bias and degrees given a unit axis beforehand, and adds the bias
  last; the reference works on whole arrays and adds the bias before the node's own term. Entry by entry both are
  `Sage.lin` (SageLayer.lean), because a sum of three extended reals does not depend on the order, infinities
  included; so no finiteness of the inputs is used. The kernel's result as a function of the arguments is read off
  its run in KernelLayer0 / KernelLayer1 (each call's result array as a function of the arrays it is entered with)
  and KernelRun / KernelValue (the run, and the host operations between the calls); the reference's in RefValue.
  The rewrite ledger of the idealization is empty, so that conjunct is trivial.
-/
import proofs.«131110_j51908974739870_1_alg».proof.Defs
import proofs.«131110_j51908974739870_1_alg».proof.Proof.Gen.Kernel
import proofs.«131110_j51908974739870_1_alg».proof.Proof.Gen.Kernel.Skeleton
import proofs.«131110_j51908974739870_1_alg».proof.Proof.Gen.Kernel.Launch
import proofs.«131110_j51908974739870_1_alg».proof.Proof.Gen.Kernel.Points
import proofs.«131110_j51908974739870_1_alg».proof.Proof.Gen.Kernel.Frame
import proofs.«131110_j51908974739870_1_alg».proof.Proof.Gen.KernelIdeal
import proofs.«131110_j51908974739870_1_alg».proof.Proof.Gen.KernelIdeal.Skeleton
import proofs.«131110_j51908974739870_1_alg».proof.Proof.Gen.KernelIdeal.Launch
import proofs.«131110_j51908974739870_1_alg».proof.Proof.Gen.KernelIdeal.Points
import proofs.«131110_j51908974739870_1_alg».proof.Proof.Gen.KernelIdeal.Frame
import proofs.«131110_j51908974739870_1_alg».proof.Proof.Gen.ReferenceIdeal
import proofs.«131110_j51908974739870_1_alg».proof.Proof.Gen.Pre_finite_inputs
import proofs.«131110_j51908974739870_1_alg».proof.Proof.Gen.ReferenceIdeal.Run
import proofs.«131110_j51908974739870_1_alg».proof.Proof.Gen.ReferenceIdeal.Read
import proofs.«131110_j51908974739870_1_alg».proof.Proof.KernelValue
import proofs.«131110_j51908974739870_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the same function of arguments that agree. -/
theorem algebraic : Cert.algebraic_KernelIdeal_ReferenceIdeal := by
  intro m ρ m' ρ' _ hagree
  refine ⟨_, Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v62_eq, Cert.ReferenceIdeal.Layers.output_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
